-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 8
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S131072x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  reducesTo_S256x256_S256_d1 : S256x256.ReducesTo [1] S256
  h_S_ : 0 < S_.numel
  bcast_S256_S1x256_1 : S256.BroadcastsInDim S1x256 (![1] : Fin 1 → Fin S1x256.rank)
  inb_S8192x256_S8192x256_0_0 : ∀ a, (![0, 0] : Fin 2 → Nat) a + S8192x256.size a ≤ S8192x256.size a
  h_S8192x256 : 0 < S8192x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S8192x256_S8192 : S8192x256.Reduces [1] S8192
  shapeCasts_S8192_S8192x1 : S8192.ShapeCasts S8192x1
  broadcasts_S8192x1_S8192x256 : S8192x1.Broadcasts S8192x256
  broadcasts_S1x256_S8192x256 : S1x256.Broadcasts S8192x256
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S131072x256.size a
  hwx0_3 : ∀ i : grid0.Coords, EltTy.bits .f32 = 32 ∨ (Rect.block (s := S131072x256) S8192x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩
abbrev S256 : Shape := ⟨1, ![256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S131072x256, .f32⟩
  | .hbm, ⟨10, _⟩ => ⟨S_, .f32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S131072x256, .f32⟩
  | .hbm, ⟨15, _⟩ => ⟨S1x256, .f32⟩
  | .hbm, ⟨16, _⟩ => ⟨S131072x256, .f32⟩
  | .hbm, ⟨17, _⟩ => ⟨S131072x256, .f32⟩
  | .hbm, ⟨18, _⟩ => ⟨S_, .f32⟩
  | .hbm, ⟨19, _⟩ => ⟨S131072x256, .f32⟩
  | .hbm, ⟨20, _⟩ => ⟨S131072x256, .f32⟩
  | .hbm, ⟨21, _⟩ => ⟨S_, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072, .f32⟩
  | .hbm, ⟨35, _⟩ => ⟨S131072x1, .f32⟩
  | .hbm, ⟨36, _⟩ => ⟨S131072x256, .f32⟩
  | .hbm, ⟨37, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S256x256_S256_d1 : S256x256.ReducesTo [1] S256
  bcast_S_S131072x256 : S_.BroadcastsInDim S131072x256 (![] : Fin 0 → Fin S131072x256.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.SoftAssign.lean ====
/-
  The function both programs compute, over the extended reals.

  For points `x : [N, D]` and centers `c : [K, D]` (here N = 131072, K = D = 256) put, for a point n and a center k,
    sx n   = Σ_d x[n,d]²,   sc k = Σ_d c[k,d]²,   cr n k = Σ_d x[n,d]·c[k,d],
    q n k  = 1 / (1 + max (sx n − 2·cr n k + sc k) 0 / 1)        (the Student-t affinity with one degree of freedom),
  and the result is the row-normalised affinity `q n k / Σ_j q n j`.
  The three literals 0, 1 and 2 stay the float words the programs spell: both programs spell the same words in the same
  places, so their values are never needed, with two exceptions proved here: a sum that starts from the word of +0.0
  starts from 0, and raising to the power spelt by the word of 1.0 changes nothing (`pow_one_word`).
-/
import Idealize.ShloMosaic.Lib.ValueIdx
import Idealize.ShloMosaic.PureOps.Ideal.Laws

noncomputable section

open scoped BigOperators

namespace Cert.SoftAssign

open Idealize.ShloMosaic Idealize.ShloMosaic.ValueIdx

/-- The words of +0.0, 1.0 and 2.0, read as extended reals. -/
abbrev zeroW : EReal := Ideal.ofBits .f32 0x00000000#32
abbrev oneW : EReal := Ideal.ofBits .f32 0x3F800000#32
abbrev twoW : EReal := Ideal.ofBits .f32 0x40000000#32

/-- The squared norm of row `n` of a matrix with 256 columns. -/
def rowSq {R : ℕ} (a : (⟨2, ![R, 256]⟩ : Shape).Idx → EReal) (n : Fin R) : EReal :=
  ∑ d : Fin 256, a (ix2 n d) * a (ix2 n d)

/-- The inner product of row `n` of `x` with row `k` of `c`. -/
def rowDot {R K : ℕ} (x : (⟨2, ![R, 256]⟩ : Shape).Idx → EReal) (c : (⟨2, ![K, 256]⟩ : Shape).Idx → EReal)
    (n : Fin R) (k : Fin K) : EReal :=
  ∑ d : Fin 256, x (ix2 n d) * c (ix2 k d)

/-- The affinity from the two squared norms and the inner product: `1 / (1 + max (sx − 2·cr + sc) 0 / 1)`. -/
def affinityOf (sx cr sc : EReal) : EReal :=
  Ideal.div oneW (oneW + Ideal.div (max (sx - twoW * cr + sc) zeroW) oneW)

/-- The affinity of point `n` to center `k`. -/
def affinity {R K : ℕ} (x : (⟨2, ![R, 256]⟩ : Shape).Idx → EReal) (c : (⟨2, ![K, 256]⟩ : Shape).Idx → EReal)
    (n : Fin R) (k : Fin K) : EReal :=
  affinityOf (rowSq x n) (rowDot x c n k) (rowSq c k)

/-- The soft assignment of point `n` to center `k` among 256 centers: its affinity over the sum of the point's affinities. -/
def softAssignAt {R : ℕ} (x : (⟨2, ![R, 256]⟩ : Shape).Idx → EReal) (c : (⟨2, ![256, 256]⟩ : Shape).Idx → EReal)
    (n : Fin R) (k : Fin 256) : EReal :=
  Ideal.div (affinity x c n k) (∑ j : Fin 256, affinity x c n j)

/-- The whole result array, index by index. -/
def softAssign {R : ℕ} (x : (⟨2, ![R, 256]⟩ : Shape).Idx → EReal) (c : (⟨2, ![256, 256]⟩ : Shape).Idx → EReal) :
    (⟨2, ![R, 256]⟩ : Shape).Idx → EReal :=
  fun i => softAssignAt x c (i 0) (i 1)

theorem softAssign_ix2 {R : ℕ} (x : (⟨2, ![R, 256]⟩ : Shape).Idx → EReal) (c : (⟨2, ![256, 256]⟩ : Shape).Idx → EReal)
    (n : Fin R) (k : Fin 256) : softAssign x c (ix2 n k) = softAssignAt x c n k := rfl

/-- A sum started from the word of +0.0 is the sum. -/
theorem zeroW_add (s : EReal) : zeroW + s = s := by
  show Ideal.ofBits .f32 0x00000000#32 + s = s
  rw [Ideal.ofBits_zero_f32, zero_add]

/-- The word of 1.0 denotes 1. -/
theorem oneW_eq : oneW = 1 := by
  show Ideal.ofBits .f32 0x3F800000#32 = 1
  simp [Ideal.ofBits, Ideal.ieee, -EReal.coe_mul]; norm_num

/-- `x ^ 1 = x` for every extended real, the infinities included: `⊥` is fixed by every power, `⊤` by every positive
    one, and on the reals it is `Real.rpow_one`. -/
theorem pow_one (x : EReal) : Ideal.pow x 1 = x := by
  induction x using EReal.rec with
  | bot => rfl
  | top => rw [Ideal.pow_top, if_pos zero_lt_one]
  | coe r =>
    rw [← EReal.coe_one, Ideal.pow_coe_coe]
    exact congrArg _ (Real.rpow_one r)

/-- So raising to the power spelt by the word of 1.0 changes nothing. -/
theorem pow_one_word (x : EReal) : Ideal.pow x oneW = x := by
  rw [oneW_eq, pow_one]

end Cert.SoftAssign

end
-- ==== Proof.ReferenceValue.lean ====
/-
  The reference's result, read one stage at a time at an index (n, k), is the soft assignment of point n to center k.

  The reference forms `‖x_n‖²` and `‖c_k‖²` as host sums started from the word of +0.0 and broadcast along the other axis,
  the inner products as one `dot_general` contracting the second axis of both operands, the affinity by the same chain of
  operations as the specification, then raises it to the power spelt by the word of 1.0 — the identity on the extended
  reals — and divides by the row sums, again a host sum started from +0.0.
-/
import proofs.«172791_j21887153341082_2_alg».proof.Proof.Gen.ReferenceIdeal.Read
import proofs.«172791_j21887153341082_2_alg».proof.Proof.SoftAssign

noncomputable section

open scoped BigOperators

namespace Cert.ReferenceIdeal.RefValue

open Cert.ReferenceIdeal Cert.ReferenceIdeal.Read Idealize.ShloMosaic Idealize.ShloMosaic.ValueIdx Cert.SoftAssign

variable (x0 : (⟨S131072x256, .f32⟩ : BufTy).Contents (Elt Ideal)) (x1 : (⟨S256x256, .f32⟩ : BufTy).Contents (Elt Ideal))

/-- The broadcast column of the points' squared norms, at (n, k), is `‖x_n‖²`. -/
theorem pointSq_apply (n : Fin 131072) (k : Fin 256) : val_main_v8 (F := Ideal) x0 (ix2 n k) = rowSq x0 n := by
  rw [val_main_v8_apply, val_main_v2_apply, val_main_v1_apply, val_main_cst_apply]
  refine (zeroW_add _).trans (Finset.sum_congr rfl fun d _ => ?_)
  have e : idx_main_v1 (idx_main_v2 (idx_main_v8 (ix2 n k))) d = ix2 n d :=
    funext fun a => Fin.ext (by match a with | ⟨0, _⟩ => rfl | ⟨1, _⟩ => rfl)
  rw [val_main_v0_apply, e] <;> rfl

/-- The broadcast row of the centers' squared norms, at (n, k), is `‖c_k‖²`. -/
theorem centerSq_apply (n : Fin 131072) (k : Fin 256) : val_main_v11 (F := Ideal) x1 (ix2 n k) = rowSq x1 k := by
  rw [val_main_v11_apply, val_main_v10_apply, val_main_v4_apply, val_main_cst_0_apply]
  refine (zeroW_add _).trans (Finset.sum_congr rfl fun d _ => ?_)
  have e : idx_main_v4 (idx_main_v10 (idx_main_v11 (ix2 n k))) d = ix2 k d :=
    funext fun a => Fin.ext (by match a with | ⟨0, _⟩ => rfl | ⟨1, _⟩ => rfl)
  rw [val_main_v3_apply, e] <;> rfl

/-- The `dot_general` at (n, k) is the inner product of point n with center k. -/
theorem dot_apply (n : Fin 131072) (k : Fin 256) : val_main_v5 (F := Ideal) x0 x1 (ix2 n k) = rowDot x0 x1 n k := by
  rw [val_main_v5_apply]
  refine Finset.sum_congr rfl fun d _ => ?_
  have el : lidx_main_v5 (ix2 n k) d = ix2 n d :=
    funext fun a => Fin.ext (by match a with | ⟨0, _⟩ => rfl | ⟨1, _⟩ => rfl)
  have er : ridx_main_v5 (ix2 n k) d = ix2 k d :=
    funext fun a => Fin.ext (by match a with | ⟨0, _⟩ => rfl | ⟨1, _⟩ => rfl)
  rw [el, er]

/-- The powered affinity at (n, k) is the affinity: the power is the first. -/
theorem affinity_apply (n : Fin 131072) (k : Fin 256) : val_main_v22 (F := Ideal) x0 x1 (ix2 n k) = affinity x0 x1 n k := by
  rw [val_main_v22_apply, val_main_v20_apply, val_main_v18_apply, val_main_v16_apply, val_main_v14_apply,
    val_main_v12_apply, val_main_v9_apply, val_main_v7_apply, pointSq_apply, centerSq_apply, dot_apply,
    val_main_v21_apply, val_main_v19_apply, val_main_v17_apply, val_main_v15_apply, val_main_v13_apply, val_main_v6_apply,
    val_main_cst_6_apply, val_main_cst_5_apply, val_main_cst_4_apply, val_main_cst_3_apply, val_main_cst_2_apply,
    val_main_cst_1_apply]
  exact pow_one_word _

/-- The reference's result at (n, k). -/
theorem result_apply (n : Fin 131072) (k : Fin 256) : val_main_v26 (F := Ideal) x0 x1 (ix2 n k) = softAssignAt x0 x1 n k := by
  rw [val_main_v26_apply, val_main_v25_apply, val_main_v24_apply, val_main_v23_apply, val_main_cst_7_apply, affinity_apply]
  refine congrArg (Ideal.div _) ((zeroW_add _).trans (Finset.sum_congr rfl fun j _ => ?_))
  have e : idx_main_v23 (idx_main_v24 (idx_main_v25 (ix2 n k))) j = ix2 n j :=
    funext fun a => Fin.ext (by match a with | ⟨0, _⟩ => rfl | ⟨1, _⟩ => rfl)
  rw [e, affinity_apply]

/-- The reference's result array is the soft assignment of its two arguments. -/
theorem result_eq : val_main_v26 (F := Ideal) x0 x1 = softAssign x0 x1 := by
  funext i
  obtain ⟨n, k, rfl⟩ : ∃ (n : Fin 131072) (k : Fin 256), i = ix2 n k := ⟨i 0, i 1, eq_ix2 i⟩
  exact result_apply x0 x1 n k

end Cert.ReferenceIdeal.RefValue

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.KernelPayload.lean ====
/-
  What the kernel body stores, read at an entry (r, k) of its [8192, 256] output block, from its three loaded blocks:
  the block of points `x0` ([8192, 256]), the transposed centers `x1` ([256, 256], entry (d, k) the d-th coordinate of
  center k) and the row of the centers' squared norms `x2` ([1, 256]).

  The body forms `‖x_r‖²` as a lane sum kept as a column, the inner products as one matrix product into the zero
  accumulator, the affinity by the specification's chain of operations, the row sums of the affinities as a second lane
  sum kept as a column, and their quotient. Each operation that is not pointwise is read at (r, k) once, below; the rest
  is the operations' definitions.
-/
import proofs.«172791_j21887153341082_2_alg».proof.Proof.Gen.KernelIdeal.Skeleton
import proofs.«172791_j21887153341082_2_alg».proof.Proof.SoftAssign
import proofs.«172791_j21887153341082_2_alg».proof.Proof.LibColumnLayout
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.SoftAssign
open Cert.LibColumnLayout

/-! ## The operations that are not pointwise, at an index -/

/-- A lane sum of an [8192, 256] block, at row r, is the sum of the row's 256 entries. -/
theorem laneSum_apply (v : FVec Ideal S8192x256 .f32) (r : Fin 8192) :
    multiReduction (F := Ideal) .add [1] S8192 v 0x00000000#32 reduces_S8192x256_S8192 (.inl rfl) rfl (ix1 r)
      = ∑ j : Fin 256, v (ix2 r j) := by
  refine (Ideal.multiReduction_add_single v 0x00000000#32 reduces_S8192x256_S8192 (.inl rfl) rfl (ix1 r)).trans ?_
  refine Finset.sum_congr rfl fun j _ => congrArg v (funext fun a => Fin.ext ?_)
  match a with
  | ⟨0, _⟩ => rfl
  | ⟨1, _⟩ => rfl

/-- A lane sum kept as a column and broadcast back over the lanes, at (r, k), is row r's sum. -/
theorem laneSumColumn_apply (v : FVec Ideal S8192x256 .f32) (r : Fin 8192) (k : Fin 256) :
    broadcastTo S8192x256 (shapeCast S8192x1
        (multiReduction (F := Ideal) .add [1] S8192 v 0x00000000#32 reduces_S8192x256_S8192 (.inl rfl) rfl)
        shapeCasts_S8192_S8192x1) broadcasts_S8192x1_S8192x256 (ix2 r k)
      = ∑ j : Fin 256, v (ix2 r j) := by
  rw [broadcastTo_a1_ab_apply, shapeCast_a_a1_apply, laneSum_apply]

/-- The operand positions of the body's matrix product, [8192, 256] × [256, 256] contracting the left operand's second
    axis with the right operand's first. -/
theorem mm_lhs0 (j : S8192x256.Idx) (q : dot_S8192x256_S256x256_S8192x256_1_0_0_1_n_n.contr.Idx) :
    (dot_S8192x256_S256x256_S8192x256_1_0_0_1_n_n.lhsIdx j q 0).val = (j 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
theorem mm_lhs1 (j : S8192x256.Idx) (q : dot_S8192x256_S256x256_S8192x256_1_0_0_1_n_n.contr.Idx) :
    (dot_S8192x256_S256x256_S8192x256_1_0_0_1_n_n.lhsIdx j q 1).val = (q ⟨0, by decide⟩).val :=
  dot_S8192x256_S256x256_S8192x256_1_0_0_1_n_n.lhsIdx_val_of_single rfl j q
theorem mm_rhs0 (j : S8192x256.Idx) (q : dot_S8192x256_S256x256_S8192x256_1_0_0_1_n_n.contr.Idx) :
    (dot_S8192x256_S256x256_S8192x256_1_0_0_1_n_n.rhsIdx j q 0).val = (q ⟨0, by decide⟩).val :=
  dot_S8192x256_S256x256_S8192x256_1_0_0_1_n_n.rhsIdx_val_of_single rfl j q
theorem mm_rhs1 (j : S8192x256.Idx) (q : dot_S8192x256_S256x256_S8192x256_1_0_0_1_n_n.contr.Idx) :
    (dot_S8192x256_S256x256_S8192x256_1_0_0_1_n_n.rhsIdx j q 1).val = (j 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The matrix product into the zero accumulator, at (r, k), is `Σ_d a[r,d]·b[d,k]`. -/
theorem blockMatmul_apply (a : FVec Ideal S8192x256 .f32) (b : FVec Ideal S256x256 .f32) (r : Fin 8192) (k : Fin 256) :
    matmul (F := Ideal) dot_S8192x256_S256x256_S8192x256_1_0_0_1_n_n (some .fp32) a b (constant (F := Ideal) S8192x256 .f32 0x00000000#32) (ix2 r k)
      = ∑ d : Fin 256, a (ix2 r d) * b (ix2 d k) := by
  simp only [matmul]
  rw [Ideal.matmul_constant_zero_apply, ← Equiv.sum_comp (contrEquiv1 dot_S8192x256_S256x256_S8192x256_1_0_0_1_n_n 256 rfl rfl).symm]
  refine Finset.sum_congr rfl fun d _ => ?_
  have hd := contrEquiv1_symm_val dot_S8192x256_S256x256_S8192x256_1_0_0_1_n_n 256 rfl rfl d
  have el : dot_S8192x256_S256x256_S8192x256_1_0_0_1_n_n.lhsIdx (ix2 r k) ((contrEquiv1 dot_S8192x256_S256x256_S8192x256_1_0_0_1_n_n 256 rfl rfl).symm d) = ix2 r d :=
    funext fun ax => Fin.ext (by
      match ax with
      | ⟨0, _⟩ => exact mm_lhs0 _ _
      | ⟨1, _⟩ => exact (mm_lhs1 _ _).trans hd)
  have er : dot_S8192x256_S256x256_S8192x256_1_0_0_1_n_n.rhsIdx (ix2 r k) ((contrEquiv1 dot_S8192x256_S256x256_S8192x256_1_0_0_1_n_n 256 rfl rfl).symm d) = ix2 d k :=
    funext fun ax => Fin.ext (by
      match ax with
      | ⟨0, _⟩ => exact (mm_rhs0 _ _).trans hd
      | ⟨1, _⟩ => exact mm_rhs1 _ _)
  rw [el, er]

/-- The row of the centers' squared norms broadcast over the block's rows, at (r, k), is its entry k. -/
theorem normRow_apply (x2 : FVec Ideal S1x256 .f32) (r : Fin 8192) (k : Fin 256) :
    broadcastTo S8192x256 (shapeCast S1x256 x2 shapeCasts_S1x256_S1x256) broadcasts_S1x256_S8192x256 (ix2 r k)
      = x2 (ix2 (0 : Fin 1) k) := by
  rw [shapeCast_self, broadcastTo_1b_ab_apply]

/-! ## The block's affinities -/

/-- The affinity of the block's row r to center k, from the three loaded blocks. -/
def blockAffinity (x0 : FVec Ideal S8192x256 .f32) (x1 : FVec Ideal S256x256 .f32) (x2 : FVec Ideal S1x256 .f32)
    (r : Fin 8192) (k : Fin 256) : EReal :=
  affinityOf (rowSq x0 r) (∑ d : Fin 256, x0 (ix2 r d) * x1 (ix2 d k)) (x2 (ix2 (0 : Fin 1) k))

/-- The [8192, 256] array of affinities as the body forms it (its value `%22`). -/
def bodyAffinity (x0 : FVec Ideal S8192x256 .f32) (x1 : FVec Ideal S256x256 .f32) (x2 : FVec Ideal S1x256 .f32) :
    FVec Ideal S8192x256 .f32 :=
  divf (broadcast S8192x256 (Scalar.ofBits (F := Ideal) .f32 0x3F800000#32))
    (addf (broadcast S8192x256 (Scalar.ofBits (F := Ideal) .f32 0x3F800000#32))
      (divf (maximumf
          (addf (subf
              (broadcastTo S8192x256 (shapeCast S8192x1
                (multiReduction (F := Ideal) .add [1] S8192 (mulf x0 x0) 0x00000000#32 reduces_S8192x256_S8192 (.inl rfl) rfl)
                shapeCasts_S8192_S8192x1) broadcasts_S8192x1_S8192x256)
              (mulf (broadcast S8192x256 (Scalar.ofBits (F := Ideal) .f32 0x40000000#32))
                (matmul (F := Ideal) dot_S8192x256_S256x256_S8192x256_1_0_0_1_n_n (some .fp32) x0 (shapeCast S256x256 x1 shapeCasts_S256x256_S256x256)
                  (constant (F := Ideal) S8192x256 .f32 0x00000000#32))))
            (broadcastTo S8192x256 (shapeCast S1x256 x2 shapeCasts_S1x256_S1x256) broadcasts_S1x256_S8192x256))
          (broadcast S8192x256 (Scalar.ofBits (F := Ideal) .f32 0x00000000#32)))
        (broadcast S8192x256 (Scalar.ofBits (F := Ideal) .f32 0x3F800000#32))))

/-- The body's payload is the affinities divided by their lane sums kept as a column: the printed chain of operations. -/
theorem k0_pay1_eq (x0 : FVec Ideal S8192x256 .f32) (x1 : FVec Ideal S256x256 .f32) (x2 : FVec Ideal S1x256 .f32) :
    k0_pay1 (F := Ideal) x0 x1 x2
      = divf (bodyAffinity x0 x1 x2)
          (broadcastTo S8192x256 (shapeCast S8192x1
            (multiReduction (F := Ideal) .add [1] S8192 (bodyAffinity x0 x1 x2) 0x00000000#32 reduces_S8192x256_S8192 (.inl rfl) rfl)
            shapeCasts_S8192_S8192x1) broadcasts_S8192x1_S8192x256) := rfl

/-- The body's affinity at (r, k) is the block's: the three operations that are not pointwise read at (r, k), the
    pointwise ones by their definitions. -/
theorem bodyAffinity_apply (x0 : FVec Ideal S8192x256 .f32) (x1 : FVec Ideal S256x256 .f32) (x2 : FVec Ideal S1x256 .f32)
    (r : Fin 8192) (k : Fin 256) : bodyAffinity x0 x1 x2 (ix2 r k) = blockAffinity x0 x1 x2 r k := by
  show Ideal.div oneW (oneW + Ideal.div (max
      (broadcastTo S8192x256 (shapeCast S8192x1
          (multiReduction (F := Ideal) .add [1] S8192 (mulf x0 x0) 0x00000000#32 reduces_S8192x256_S8192 (.inl rfl) rfl)
          shapeCasts_S8192_S8192x1) broadcasts_S8192x1_S8192x256 (ix2 r k)
        - twoW * matmul (F := Ideal) dot_S8192x256_S256x256_S8192x256_1_0_0_1_n_n (some .fp32) x0 (shapeCast S256x256 x1 shapeCasts_S256x256_S256x256)
            (constant (F := Ideal) S8192x256 .f32 0x00000000#32) (ix2 r k)
        + broadcastTo S8192x256 (shapeCast S1x256 x2 shapeCasts_S1x256_S1x256) broadcasts_S1x256_S8192x256 (ix2 r k))
      zeroW) oneW) = _
  rw [laneSumColumn_apply, shapeCast_self x1, blockMatmul_apply, normRow_apply] <;> rfl

/-- THE PAYLOAD AT AN ENTRY: the block's affinity at (r, k) over the sum of row r's affinities. -/
theorem payload_apply (x0 : FVec Ideal S8192x256 .f32) (x1 : FVec Ideal S256x256 .f32) (x2 : FVec Ideal S1x256 .f32)
    (r : Fin 8192) (k : Fin 256) :
    k0_pay1 (F := Ideal) x0 x1 x2 (ix2 r k)
      = Ideal.div (blockAffinity x0 x1 x2 r k) (∑ j : Fin 256, blockAffinity x0 x1 x2 r j) := by
  rw [k0_pay1_eq]
  show Ideal.div (bodyAffinity x0 x1 x2 (ix2 r k)) (broadcastTo S8192x256 (shapeCast S8192x1
      (multiReduction (F := Ideal) .add [1] S8192 (bodyAffinity x0 x1 x2) 0x00000000#32 reduces_S8192x256_S8192 (.inl rfl) rfl)
      shapeCasts_S8192_S8192x1) broadcasts_S8192x1_S8192x256 (ix2 r k)) = _
  rw [laneSumColumn_apply, bodyAffinity_apply]
  exact congrArg (Ideal.div _) (Finset.sum_congr rfl fun j _ => bodyAffinity_apply x0 x1 x2 r j)

/-! ## The payload over blocks that are pieces of the two arguments -/

/-- When the block of points holds rows of `X` (row r of the block is row n of `X`), the second block is the transpose
    of the centers `C` and the third block holds the centers' squared norms, the block's affinity of row r to center k is
    the affinity of point n to center k. -/
theorem blockAffinity_eq {R : ℕ} (X : (⟨2, ![R, 256]⟩ : Shape).Idx → EReal) (C : (⟨2, ![256, 256]⟩ : Shape).Idx → EReal)
    (x0 : FVec Ideal S8192x256 .f32) (x1 : FVec Ideal S256x256 .f32) (x2 : FVec Ideal S1x256 .f32)
    (r : Fin 8192) (n : Fin R)
    (h0 : ∀ d : Fin 256, x0 (ix2 r d) = X (ix2 n d))
    (h1 : ∀ d k : Fin 256, x1 (ix2 d k) = C (ix2 k d))
    (h2 : ∀ k : Fin 256, x2 (ix2 (0 : Fin 1) k) = rowSq C k) (k : Fin 256) :
    blockAffinity x0 x1 x2 r k = affinity X C n k := by
  have e1 : rowSq x0 r = rowSq X n := by
    unfold rowSq
    exact Finset.sum_congr rfl fun d _ => by rw [h0 d]
  have e2 : (∑ d : Fin 256, x0 (ix2 r d) * x1 (ix2 d k)) = rowDot X C n k := by
    unfold rowDot
    exact Finset.sum_congr rfl fun d _ => by rw [h0 d, h1 d k]
  unfold blockAffinity affinity
  rw [e1, e2, h2 k]

/-- … and the payload at (r, k) is the soft assignment of point n to center k. -/
theorem payload_eq_softAssignAt {R : ℕ} (X : (⟨2, ![R, 256]⟩ : Shape).Idx → EReal) (C : (⟨2, ![256, 256]⟩ : Shape).Idx → EReal)
    (x0 : FVec Ideal S8192x256 .f32) (x1 : FVec Ideal S256x256 .f32) (x2 : FVec Ideal S1x256 .f32)
    (r : Fin 8192) (n : Fin R)
    (h0 : ∀ d : Fin 256, x0 (ix2 r d) = X (ix2 n d))
    (h1 : ∀ d k : Fin 256, x1 (ix2 d k) = C (ix2 k d))
    (h2 : ∀ k : Fin 256, x2 (ix2 (0 : Fin 1) k) = rowSq C k) (k : Fin 256) :
    k0_pay1 (F := Ideal) x0 x1 x2 (ix2 r k) = softAssignAt X C n k := by
  rw [payload_apply, blockAffinity_eq X C x0 x1 x2 r n h0 h1 h2 k]
  unfold softAssignAt
  exact congrArg (Ideal.div _) (Finset.sum_congr rfl fun j _ => blockAffinity_eq X C x0 x1 x2 r n h0 h1 h2 j)

end Cert.KernelIdeal.Payload

end
-- ==== Proof.KernelBlocks.lean ====
/-
  The three input blocks of a grid point, as pieces of the program's two arguments.

  The grid has 16 points; point t stages rows 8192·t … 8192·t + 8191 of the points `x` (window 0), and at every point
  the whole transposed centers (window 1) and the whole row of the centers' squared norms (window 2), the two arrays the
  host computes before the launch: the transpose of the centers, and their squared row norms — a host sum started from
  the word of +0.0 — laid as one row.
-/
import proofs.«172791_j21887153341082_2_alg».proof.Proof.Gen.KernelIdeal.Frame
import proofs.«172791_j21887153341082_2_alg».proof.Proof.SoftAssign
import proofs.«172791_j21887153341082_2_alg».proof.Proof.LibColumnLayout
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.SoftAssign Cert.LibColumnLayout

variable (m : (ℓ : Loc nD τ sig) → Buf (Elt Ideal) ℓ)

/-- The points and the centers, as launched on core `c`. -/
abbrev points (c : Dev nD) : S131072x256.Idx → EReal := m ((c : Thread nD τ).loc main_arg0)
abbrev centers (c : Dev nD) : S256x256.Idx → EReal := m ((c : Thread nD τ).loc main_arg1)

/-! ## The block index of each window at each point -/

/-- Decided over the 16 points: the points' window and the output window are at block (t, 0), the two resident windows
    at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The two arrays the host computes before the launch -/

/-- The second operand of the launch is the transpose of the centers. -/
theorem V_centersT (c : Dev nD) :
    (V m c main_v0 : S256x256.Idx → EReal) = transpose S256x256 [1, 0] (centers m c) transposes_S256x256_S256x256_1_0 := by
  dsimp only [V, hostOps0]; after_results

/-- The third operand is the centers' squared row norms, a host sum over the second axis, laid as one row. -/
theorem V_normRow (c : Dev nD) :
    (V m c main_v3 : S1x256.Idx → EReal) = broadcastInDim S1x256 ![1] bcast_S256_S1x256_1
      (Host.reduceAdd (F := Ideal) (mulf (F := Ideal) (φ := .f32) (centers m c) (centers m c))
        (constant (F := Ideal) S_ .f32 0x00000000#32) reducesTo_S256x256_S256_d1 h_S_) := by
  dsimp only [V, hostOps0]; after_results

/-- The host's sum of squares over the second axis, at k, is `‖c_k‖²`. -/
theorem hostRowSum_apply (y : FVec Ideal S256x256 .f32) (k : Fin 256) :
    Host.reduceAdd (F := Ideal) y (constant (F := Ideal) S_ .f32 0x00000000#32) reducesTo_S256x256_S256_d1 h_S_ (ix1 k)
      = ∑ d : Fin 256, y (ix2 k d) := by
  simp only [Host.reduceAdd, Ideal.hostReduceAdd_def]
  rw [Ideal.hostReduceAdd_single reducesTo_S256x256_S256_d1 (by decide)]
  refine (zeroW_add _).trans (Finset.sum_congr rfl fun d _ => ?_)
  exact congrArg y (funext fun a => Fin.ext (by match a with | ⟨0, _⟩ => rfl | ⟨1, _⟩ => rfl))

theorem hostRowSq_apply (A : FVec Ideal S256x256 .f32) (k : Fin 256) :
    Host.reduceAdd (F := Ideal) (mulf A A) (constant (F := Ideal) S_ .f32 0x00000000#32) reducesTo_S256x256_S256_d1 h_S_ (ix1 k)
      = rowSq A k :=
  hostRowSum_apply (mulf A A) k

/-! ## The blocks -/

/-- Row r of the points' block at point t is row 8192·t + r of the points. -/
theorem pointsBlock_apply (c : Dev nD) (t : Fin cfg0.N) (r : Fin 8192) (d : Fin 256) (n : Fin 131072)
    (hn : n.val = 8192 * t.val + r.val) :
    (iblk m c 0 t : Vec Ideal S8192x256 .f32) (ix2 r d) = points m c (ix2 n d) := by
  obtain ⟨e0, e1, -⟩ := idx_facts t
  unfold iblk
  rw [View.read_apply]
  show V m c main_arg0 _ = _
  rw [V_main_arg0 m c]
  refine congrArg (points m c) (funext fun a => Fin.ext ?_)
  match a with
  | ⟨0, _⟩ => show win0_0.index t (0 : Fin 2) * 8192 + 1 * r.val = n.val; omega
  | ⟨1, _⟩ => show win0_0.index t (1 : Fin 2) * 256 + 1 * d.val = d.val; omega

/-- The second block at any point is the transposed centers: its entry (d, k) is coordinate d of center k. -/
theorem centersBlock_apply (c : Dev nD) (t : Fin cfg0.N) (d k : Fin 256) :
    (iblk m c 1 t : Vec Ideal S256x256 .f32) (ix2 d k) = centers m c (ix2 k d) := by
  obtain ⟨-, -, e2, e3, -⟩ := idx_facts t
  unfold iblk
  rw [View.read_apply]
  show (V m c main_v0 : S256x256.Idx → EReal) _ = _
  rw [V_centersT m c]
  have hemb : ((cfg0.win 1).blk t).view.emb (ix2 d k) = ix2 d k := by
    funext a; apply Fin.ext
    match a with
    | ⟨0, _⟩ => show win0_1.index t (0 : Fin 2) * 256 + 1 * d.val = d.val; omega
    | ⟨1, _⟩ => show win0_1.index t (1 : Fin 2) * 256 + 1 * k.val = k.val; omega
  rw [hemb, transpose_ix2_apply]

/-- The third block at any point is the row of the centers' squared norms. -/
theorem normBlock_apply (c : Dev nD) (t : Fin cfg0.N) (k : Fin 256) :
    (iblk m c 2 t : Vec Ideal S1x256 .f32) (ix2 (0 : Fin 1) k) = rowSq (centers m c) k := by
  obtain ⟨-, -, -, -, e4, e5, -⟩ := idx_facts t
  unfold iblk
  rw [View.read_apply]
  show (V m c main_v3 : S1x256.Idx → EReal) _ = _
  rw [V_normRow m c]
  have hemb : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 256 + 1 * k.val = k.val; omega
  rw [hemb, broadcastInDim_b_1b_apply, hostRowSq_apply]

end Cert.KernelIdeal.Blocks

end
-- ==== Proof.KernelValue.lean ====
/-
  The kernel's result array is the soft assignment of its two arguments.

  Point t of the grid writes back rows 8192·t … 8192·t + 8191 of the result; what it writes at (r, k) is the body's
  payload of the point's three input blocks, which is the soft assignment of point 8192·t + r to center k because the
  blocks are the pieces of the arguments the specification reads there. Row n lies in the block of point n / 8192, so
  the 16 blocks cover the array, and the array after the run is the specification's function.
-/
import proofs.«172791_j21887153341082_2_alg».proof.Proof.Gen.KernelIdeal.Value
import proofs.«172791_j21887153341082_2_alg».proof.Proof.KernelPayload
import proofs.«172791_j21887153341082_2_alg».proof.Proof.KernelBlocks

noncomputable section

open scoped BigOperators

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.SoftAssign Cert.KernelIdeal.Blocks Cert.KernelIdeal.Payload

variable (m : (ℓ : Loc nD τ sig) → Buf (Elt Ideal) ℓ) (ρ : Dev nD → PrngReg)

theorem zeroOffsets : (![0, 0] : Fin 2 → Nat) = fun _ => 0 := funext fun a => by fin_cases a <;> rfl

/-- WHAT POINT `t` WRITES BACK is block t of the soft assignment of the launched arguments. -/
theorem flushed_eq (c : Dev nD) (t : Fin cfg0.N) :
    (dats m 0 c).flushed 3 t
      = ((cfg0.win 3).blk t).view.read (Elt Ideal) (softAssign (points m c) (centers m c)) := by
  rw [Cert.KernelIdeal.Value.flushed3]
  unfold out0_3
  rw [View.canon_unit_zero zeroOffsets]
  simp only [View.ld_unit_zero (S := S8192x256) zeroOffsets, View.ld_unit_zero (S := S256x256) zeroOffsets,
    View.ld_unit_zero (S := S1x256) zeroOffsets]
  obtain ⟨-, -, -, -, -, -, e6, e7⟩ := idx_facts t
  have hN : grid0.N = 16 := N_0
  have ht : t.val < 16 := Nat.lt_of_lt_of_eq t.isLt hN
  funext j
  have hr : (j 0).val < 8192 := (j 0).isLt
  have hk : (j 1).val < 256 := (j 1).isLt
  show k0_pay1 (F := Ideal) (iblk m c 0 t) (iblk m c 1 t) (iblk m c 2 t) j
    = softAssign (points m c) (centers m c) (((cfg0.win 3).blk t).view.emb j)
  have hj : j = ix2 (⟨(j 0).val, hr⟩ : Fin 8192) (⟨(j 1).val, hk⟩ : Fin 256) :=
    funext fun a => by match a with | ⟨0, _⟩ => rfl | ⟨1, _⟩ => rfl
  have hemb : ((cfg0.win 3).blk t).view.emb j
      = ix2 (⟨8192 * t.val + (j 0).val, by omega⟩ : Fin 131072) (⟨(j 1).val, hk⟩ : Fin 256) := by
    funext a; apply Fin.ext
    match a with
    | ⟨0, _⟩ => show win0_3.index t (0 : Fin 2) * 8192 + 1 * (j 0).val = 8192 * t.val + (j 0).val; omega
    | ⟨1, _⟩ => show win0_3.index t (1 : Fin 2) * 256 + 1 * (j 1).val = (j 1).val; omega
  rw [hemb, softAssign_ix2]
  refine (congrArg (k0_pay1 (F := Ideal) (iblk m c 0 t) (iblk m c 1 t) (iblk m c 2 t)) hj).trans ?_
  exact payload_eq_softAssignAt (points m c) (centers m c) (iblk m c 0 t) (iblk m c 1 t) (iblk m c 2 t)
    (⟨(j 0).val, hr⟩ : Fin 8192) (⟨8192 * t.val + (j 0).val, by omega⟩ : Fin 131072)
    (fun d => pointsBlock_apply m c t (⟨(j 0).val, hr⟩ : Fin 8192) d (⟨8192 * t.val + (j 0).val, by omega⟩ : Fin 131072) rfl)
    (fun d k => centersBlock_apply m c t d k)
    (fun k => normBlock_apply m c t k)
    (⟨(j 1).val, hk⟩ : Fin 256)

/-- An index of the result is in point t's block iff each coordinate is in the block's range on its axis. -/
theorem mem_blk (t : Fin cfg0.N) (i : S131072x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v4).slice (win0_3.rect t)).set ↔ _
  rw [View.set_slice_whole, Rect.mem_set_unit]
  exact Iff.rfl

/-- Every index of the result is in the block of the point that holds its row: row n is in block n / 8192. -/
theorem covered (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : grid0.N = 16 := N_0
  obtain ⟨t, ht⟩ : ∃ t : Fin cfg0.N, t.val = (i 0).val / 8192 :=
    ⟨⟨(i 0).val / 8192, Nat.lt_of_lt_of_eq (by omega) hN.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 256 ≤ (i 1).val ∧ (i 1).val < win0_3.index t (1 : Fin 2) * 256 + 256
    omega

/-- THE RESULT ARRAY after the run is the soft assignment of the launched arguments. -/
theorem result_eq (c : Dev nD) : (dats m 0 c).arrAt 3 cfg0.N = softAssign (points m c) (centers m c) :=
  (dats m 0 c).arrAt_eq_of_cover 3 (softAssign (points m c) (centers m c)) (fun t _ => flushed_eq m c t) covered

/-- The kernel's run, read: the result at the soft assignment of the arguments, the arguments unchanged. -/
theorem run : θ_run defs (onTc (τ := τ) (main (F := Ideal))) ⟨m, fun _ => 0, ρ⟩ fun r => ∀ c : Dev nD,
      r.2.mem ((c : Thread nD τ).loc main_v4) = softAssign (points m c) (centers m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Result

end
-- ==== Proof.lean ====
/-
  The proof of `Cert.Claim`: a Pallas kernel that, for 131072 points and 256 centers in 256 dimensions, forms the
  Student-t soft assignment `q[n,k] / Σ_j q[n,j]`, `q[n,k] = 1 / (1 + max (‖x_n‖² − 2·x_n·c_k + ‖c_k‖²) 0)`, tile by
  tile over 16 blocks of 8192 points, against the same formula written in jnp over the whole arrays.

  Over the extended reals the two programs apply the same operations in the same order to the same sums, so no law of
  arithmetic is needed beyond two facts about literals: a sum started from +0.0 is the sum, and the reference's power with
  exponent 1.0 is the identity (Proof/SoftAssign.lean). What differs is the arrangement: the kernel multiplies by the
  transposed centers where the reference contracts the second axes; the kernel gets the centers' squared norms from the
  host as a row; the kernel's sums are lane sums of a block kept as columns. Proof/ReferenceValue.lean reads the
  reference's stages at an index, Proof/KernelPayload.lean the kernel body's stored value, Proof/KernelBlocks.lean the
  body's input blocks as pieces of the arguments, Proof/KernelValue.lean puts the 16 written blocks together. The three
  programs terminate without fault and keep their arguments by the generated frame runs; the idealization rewrote
  nothing, so `preserves` has nothing to state.
-/
import proofs.«172791_j21887153341082_2_alg».proof.Defs
import proofs.«172791_j21887153341082_2_alg».proof.Proof.Gen.Kernel
import proofs.«172791_j21887153341082_2_alg».proof.Proof.Gen.Kernel.Skeleton
import proofs.«172791_j21887153341082_2_alg».proof.Proof.Gen.Kernel.Launch
import proofs.«172791_j21887153341082_2_alg».proof.Proof.Gen.Kernel.Points
import proofs.«172791_j21887153341082_2_alg».proof.Proof.Gen.Kernel.Frame
import proofs.«172791_j21887153341082_2_alg».proof.Proof.Gen.KernelIdeal
import proofs.«172791_j21887153341082_2_alg».proof.Proof.Gen.KernelIdeal.Skeleton
import proofs.«172791_j21887153341082_2_alg».proof.Proof.Gen.KernelIdeal.Launch
import proofs.«172791_j21887153341082_2_alg».proof.Proof.Gen.KernelIdeal.Points
import proofs.«172791_j21887153341082_2_alg».proof.Proof.Gen.KernelIdeal.Frame
import proofs.«172791_j21887153341082_2_alg».proof.Proof.Gen.ReferenceIdeal
import proofs.«172791_j21887153341082_2_alg».proof.Proof.Gen.KernelIdeal.Value
import proofs.«172791_j21887153341082_2_alg».proof.Proof.Gen.ReferenceIdeal.Run
import proofs.«172791_j21887153341082_2_alg».proof.Proof.Gen.ReferenceIdeal.Read
import proofs.«172791_j21887153341082_2_alg».proof.Proof.Gen.Pre_finite_inputs
import proofs.«172791_j21887153341082_2_alg».proof.Proof.ReferenceValue
import proofs.«172791_j21887153341082_2_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the points and the centers, the idealized kernel's result array and the reference's are
    both the soft assignment of those arguments. -/
theorem algebraic : Cert.algebraic_KernelIdeal_ReferenceIdeal := by
  intro m ρ m' ρ' _ hagree
  refine ⟨fun c => Cert.SoftAssign.softAssign (Cert.KernelIdeal.Blocks.points m c) (Cert.KernelIdeal.Blocks.centers m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v26_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
